-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x1024 : Shape := ⟨3, ![2048, 16, 1024]⟩
abbrev S1024 : Shape := ⟨1, ![1024]⟩
abbrev S16x2048 : Shape := ⟨2, ![16, 2048]⟩
abbrev S_ : Shape := ⟨0, ![]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel
  bcast_S_S1024 : S_.BroadcastsInDim S1024 (![] : Fin 0 → Fin S1024.rank)
  reducesTo_S1024_S_d0 : S1024.ReducesTo [0] S_
  reducesTo_S16x2048_S_d0_1 : S16x2048.ReducesTo [0, 1] S_

variable [Facts]

def fn {F : FTy → Type} [FloatOps F] (main_arg0 : FVec F S2048x16x1024 .f32) (main_arg1 : FVec F S1024 .f32) (main_arg2 : FVec F S1024 .f32) (main_arg3 : IVec S16x2048 1) : IVec S_ 1 :=
  let main_v0 : FVec F S2048x16x1024 .f32 := Host.absf main_arg0
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : IVec S16x2048 1 := noti main_arg3
  let main_c_4 : IVec S_ 1 := constantI S_ 1 0#1
  let main_v15 : IVec S_ 1 := (fun x v => Host.reduce IntOp.ori x v reducesTo_S16x2048_S_d0_1 h_S_) main_v14 main_c_4
  let main_v16 : IVec S_ 1 := andi main_v13 main_v15
  main_v16
-- ==== Kernel.lean ====
abbrev S2048x16x1024 : Shape := ⟨3, ![2048, 16, 1024]⟩
abbrev S1024 : Shape := ⟨1, ![1024]⟩
abbrev S16x2048 : Shape := ⟨2, ![16, 2048]⟩
abbrev S2048x16 : Shape := ⟨2, ![2048, 16]⟩
abbrev S_ : Shape := ⟨0, ![]⟩
abbrev S128x16x1024 : Shape := ⟨3, ![128, 16, 1024]⟩
abbrev S128x16 : Shape := ⟨2, ![128, 16]⟩
abbrev S128x16x1 : Shape := ⟨3, ![128, 16, 1]⟩
abbrev S2048x1024 : Shape := ⟨2, ![2048, 1024]⟩
abbrev S1x1x1024 : Shape := ⟨3, ![1, 1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S2048x16x1024, .f32⟩
  | .hbm, ⟨1, _⟩ => ⟨S1024, .f32⟩
  | .hbm, ⟨2, _⟩ => ⟨S1024, .f32⟩
  | .hbm, ⟨3, _⟩ => ⟨S16x2048, .i1⟩
  | .hbm, ⟨4, _⟩ => ⟨S16x2048, .i1⟩
  | .hbm, ⟨5, _⟩ => ⟨S2048x16, .i1⟩
  | .hbm, ⟨6, _⟩ => ⟨S2048x16, .f32⟩
  | .hbm, ⟨7, _⟩ => ⟨S_, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S2048x16x1024, .f32⟩
  | .local _ .vmem, ⟨0, _⟩ => ⟨S128x16x1024, .f32⟩
  | .local _ .vmem, ⟨1, _⟩ => ⟨S128x16x1024, .f32⟩
  | .local _ .vmem, ⟨2, _⟩ => ⟨S128x16, .f32⟩
  | .local _ .vmem, ⟨3, _⟩ => ⟨S128x16, .f32⟩
  | .local _ .vmem, ⟨4, _⟩ => ⟨S1024, .f32⟩
  | .local _ .vmem, ⟨5, _⟩ => ⟨S128x16x1024, .f32⟩
  | .local _ .vmem, ⟨6, _⟩ => ⟨S128x16x1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S128x16x1024, .f32⟩
  | .local _ .vmem, ⟨11, _⟩ => ⟨S128x16x1024, .f32⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S128x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S16x2048_S2048x16_1_0 : S16x2048.Transposes [1, 0] S2048x16
  reducesTo_S2048x16_S_d0_1 : S2048x16.ReducesTo [0, 1] S_
  h_S_ : 0 < S_.numel
  inb_S1024_S1024_0 : ∀ a, (![0] : Fin 1 → Nat) a + S1024.size a ≤ S1024.size a
  h_S1024 : 0 < S1024.numel
  inb_S128x16x1024_S128x16x1024_0_0_0 : ∀ a, (![0, 0, 0] : Fin 3 → Nat) a + S128x16x1024.size a ≤ S128x16x1024.size a
  h_S128x16x1024 : 0 < S128x16x1024.numel
  reduces_S128x16x1024_S128x16 : S128x16x1024.Reduces [2] S128x16
  shapeCasts_S128x16_S128x16x1 : S128x16.ShapeCasts S128x16x1
  broadcasts_S128x16x1_S128x16x1024 : S128x16x1.Broadcasts S128x16x1024
  inb_S128x16_S128x16_0_0 : ∀ a, (![0, 0] : Fin 2 → Nat) a + S128x16.size a ≤ S128x16.size a
  h_S128x16 : 0 < S128x16.numel
  shapeCasts_S128x16_S128x16 : S128x16.ShapeCasts S128x16
  shapeCasts_S128x16x1024_S2048x1024 : S128x16x1024.ShapeCasts S2048x1024
  reduces_S2048x1024_S1024 : S2048x1024.Reduces [0] S1024
  shapeCasts_S1024_S1024 : S1024.ShapeCasts S1024
  bcast_S_S1024 : S_.BroadcastsInDim S1024 (![] : Fin 0 → Fin S1024.rank)
  shapeCasts_S1024_S1x1x1024 : S1024.ShapeCasts S1x1x1024
  broadcasts_S1x1x1024_S128x16x1024 : S1x1x1024.Broadcasts S128x16x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x1024.size a ≤ S2048x16x1024.size a
  hwx0_0 : ∀ i : grid0.Coords, EltTy.bits .f32 = 32 ∨ (Rect.block (s := S2048x16x1024) S128x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S2048x16.size a
  hwx0_1 : ∀ i : grid0.Coords, EltTy.bits .f32 = 32 ∨ (Rect.block (s := S2048x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x1024.size a ≤ S2048x16x1024.size a
  hwx1_0 : ∀ i : grid1.Coords, EltTy.bits .f32 = 32 ∨ (Rect.block (s := S2048x16x1024) S128x16x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x16x1024.size a ≤ S2048x16x1024.size a
  hwx1_4 : ∀ i : grid1.Coords, EltTy.bits .f32 = 32 ∨ (Rect.block (s := S2048x16x1024) S128x16x1024.size (cc1_transform_4 i) (hinb1_4 i)).WholeWords (EltTy.packing .f32)

variable [Facts₀]

abbrev win0_0 : Pipeline.Window sig grid0 :=
  Pipeline.Window.ofSpec (Memref.whole main_arg0) S128x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x16x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x16x1024 : Shape := ⟨3, ![2048, 16, 1024]⟩
abbrev S1024 : Shape := ⟨1, ![1024]⟩
abbrev S16x2048 : Shape := ⟨2, ![16, 2048]⟩
abbrev S_ : Shape := ⟨0, ![]⟩
abbrev S2048x16 : Shape := ⟨2, ![2048, 16]⟩
abbrev S2048x16x1 : Shape := ⟨3, ![2048, 16, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S1024, .f32⟩
  | .hbm, ⟨2, _⟩ => ⟨S1024, .f32⟩
  | .hbm, ⟨3, _⟩ => ⟨S16x2048, .i1⟩
  | .hbm, ⟨4, _⟩ => ⟨S2048x16x1024, .f32⟩
  | .hbm, ⟨5, _⟩ => ⟨S_, .f32⟩
  | .hbm, ⟨6, _⟩ => ⟨S2048x16, .f32⟩
  | .hbm, ⟨7, _⟩ => ⟨S2048x16x1, .f32⟩
  | .hbm, ⟨8, _⟩ => ⟨S_, .f32⟩
  | .hbm, ⟨9, _⟩ => ⟨S2048x16x1, .f32⟩
  | .hbm, ⟨10, _⟩ => ⟨S2048x16x1, .f32⟩
  | .hbm, ⟨11, _⟩ => ⟨S_, .f32⟩
  | .hbm, ⟨12, _⟩ => ⟨S2048x16x1, .f32⟩
  | .hbm, ⟨13, _⟩ => ⟨S2048x16x1, .f32⟩
  | .hbm, ⟨14, _⟩ => ⟨S2048x16x1, .f32⟩
  | .hbm, ⟨15, _⟩ => ⟨S2048x16x1024, .f32⟩
  | .hbm, ⟨16, _⟩ => ⟨S2048x16x1024, .f32⟩
  | .hbm, ⟨17, _⟩ => ⟨S16x2048, .i1⟩
  | .hbm, ⟨18, _⟩ => ⟨S2048x16, .i1⟩
  | .hbm, ⟨19, _⟩ => ⟨S2048x16, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S2048x16x1024, .f32⟩
  | .hbm, ⟨24, _⟩ => ⟨S2048x16x1, .i1⟩
  | .hbm, ⟨25, _⟩ => ⟨S2048x16x1, .f32⟩
  | .hbm, ⟨26, _⟩ => ⟨S2048x16x1024, .f32⟩
  | .hbm, ⟨27, _⟩ => ⟨S2048x16x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1x1x1024, .f32⟩
  | .hbm, ⟨37, _⟩ => ⟨S2048x16x1024, .f32⟩
  | .hbm, ⟨38, _⟩ => ⟨S2048x16x1024, .f32⟩
  | .hbm, ⟨39, _⟩ => ⟨S1x1x1024, .f32⟩
  | .hbm, ⟨40, _⟩ => ⟨S2048x16x1024, .f32⟩
  | .hbm, ⟨41, _⟩ => ⟨S2048x16x1024, .f32⟩
  | .hbm, ⟨42, _⟩ => ⟨S1x1x1024, .f32⟩
  | .hbm, ⟨43, _⟩ => ⟨S2048x16x1024, .f32⟩
  | .hbm, ⟨44, _⟩ => ⟨S2048x16x1024, .f32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S2048x16x1024_S2048x16_d2 : S2048x16x1024.ReducesTo [2] S2048x16
  h_S_ : 0 < S_.numel
  bcast_S2048x16_S2048x16x1_0_1 : S2048x16.BroadcastsInDim S2048x16x1 (![0, 1] : Fin 2 → Fin S2048x16x1.rank)
  bcast_S_S2048x16x1 : S_.BroadcastsInDim S2048x16x1 (![] : Fin 0 → Fin S2048x16x1.rank)
  bcast_S2048x16x1_S2048x16x1024_0_1_2 : S2048x16x1.BroadcastsInDim S2048x16x1024 (![0, 1, 2] : Fin 3 → Fin S2048x16x1024.rank)
  transposes_S16x2048_S2048x16_1_0 : S16x2048.Transposes [1, 0] S2048x16
  natLt_1_32 : 1 < 32
  reducesTo_S2048x16_S_d0_1 : S2048x16.ReducesTo [0, 1] S_
  reducesTo_S2048x16x1024_S1024_d0_1 : S2048x16x1024.ReducesTo [0, 1] S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S2048x16x1024_0_1_2 : S1x1x1024.BroadcastsInDim S2048x16x1024 (![0, 1, 2] : Fin 3 → Fin S2048x16x1024.rank)

variable [Facts₀]

class Facts : Prop extends Facts₀ where

variable [Facts]
-- ==== Proof.KRun.lean ====
/-
  The idealized kernel's run with its result array named.

  The run is the same as the one that shows the argument arrays unchanged: the host stretch that builds the validity
  numbers and their count, the first grid (the statistic), the host quotient, the second grid (the result).  Its last
  thread state holds every buffer at the contents the second grid leaves; read at the result buffer, that is the array
  the second grid's write-backs fold into, and at the arguments, their launch contents.
-/
import proofs.«100372_j2413771621060_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_value : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KRun

end
-- ==== Proof.Consts.lean ====
/-
  The two float constants both programs carry, as the extended reals their words denote: the channel count 1024.0 is
  the real 1024, and the stabilizer 9.99999974E-6 is a positive real (10995116 · 2⁻⁴⁰).  Both words are decoded here
  and nowhere else.
-/
import Idealize.ShloMosaic.PureOps.Ideal

noncomputable section

namespace Cert.Consts

open Idealize.ShloMosaic

/-- The word of `1024.0` denotes the real 1024. -/
theorem ofBits_1024 : Ideal.ofBits .f32 0x44800000#32 = ((1024 : ℝ) : EReal) := by
  simp [Ideal.ofBits, Ideal.ieee, -EReal.coe_mul]; norm_num

/-- The word of the stabilizer denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Cert.Consts

end
-- ==== Proof.Spec.lean ====
/-
  The function both programs compute, on the extended reals.

  For a token (t, b) with channel row ρ = x[t, b, ·]:  d(ρ) = (∑ₖ ρₖ²) / 1024 + ε  and the scaled row is
  ρ_c · d(ρ)^(-1/2).  With the validity bit v(t, b) ∈ {0, 1} the channel statistic is
  S_c = ∑ₜ ∑_b (scaled row)_c² · v(t, b),  the count is  n = ∑ v,  and the result is
  w_c · (scaled_c · (S_c / n + ε)^(-1/2)) + bias_c.

  One program multiplies by the reciprocal square root, the other divides by the square root.  On the extended reals
  the two agree at every POSITIVE argument (a positive real, or +∞ where both give 0), and both arguments here are
  positive: a sum of squares is never negative, a quotient of a non-negative number by 1024 or by a count n ≥ 1 is
  not negative, and ε > 0.  That the count is at least one is where the precondition "some token is valid" enters:
  at n = 0 the quotient 0 / 0 is not a number and the two spellings part ways.
-/
import Idealize.ShloMosaic.PureOps.Ideal
import Idealize.ShloMosaic.Lib.ValueIdx
import proofs.«100372_j2413771621060_2_alg».proof.Proof.Consts

noncomputable section

open scoped BigOperators

namespace Cert.Spec

open Idealize.ShloMosaic Idealize.ShloMosaic.ValueIdx

/-- The stabilizer ε and the channel count, as the programs' words. -/
abbrev eps : EReal := Ideal.ofBits .f32 0x3727C5AC#32
abbrev n1024 : EReal := Ideal.ofBits .f32 0x44800000#32

/-! ## Signs -/

/-- A square is never negative, at the infinities too. -/
theorem mul_self_nonneg (a : EReal) : 0 ≤ a * a := by
  induction a using EReal.rec with
  | bot => simp
  | top => simp
  | coe r => rw [← EReal.coe_mul]; exact EReal.coe_nonneg.mpr (_root_.mul_self_nonneg r)

theorem eps_pos : 0 < eps := by
  obtain ⟨e, he, h⟩ := Cert.Consts.ofBits_eps_pos
  rw [eps, h]; exact EReal.coe_pos.mpr he

/-- A non-negative number plus ε is positive. -/
theorem add_eps_pos (a : EReal) (ha : 0 ≤ a) : 0 < a + eps :=
  lt_of_lt_of_le eps_pos (le_add_of_nonneg_left ha)

/-- A non-negative number divided by a real n ≥ 1 is not negative. -/
theorem div_real_nonneg (s : EReal) (hs : 0 ≤ s) (n : ℝ) (hn : 1 ≤ n) : 0 ≤ Ideal.div s (n : EReal) := by
  rw [Ideal.div_coe (by linarith : n ≠ 0)]
  exact EReal.mul_nonneg hs (EReal.coe_nonneg.mpr (by positivity))

theorem div_1024_nonneg (s : EReal) (hs : 0 ≤ s) : 0 ≤ Ideal.div s n1024 := by
  rw [n1024, Cert.Consts.ofBits_1024]; exact div_real_nonneg s hs 1024 (by norm_num)

/-! ## The reciprocal square root against the square root -/

/-- At a positive argument, multiplying by the reciprocal square root is dividing by the square root. -/
theorem mul_rsqrt (x d : EReal) (hd : 0 < d) : x * Ideal.rsqrt d = Ideal.div x (Ideal.sqrt d) := by
  induction d using EReal.rec with
  | bot => exact absurd hd (by simp)
  | top =>
    show x * 0 = Ideal.div x ⊤
    unfold Ideal.div
    rw [if_neg (by simp)]
    simp
  | coe r =>
    have hr : 0 < r := EReal.coe_pos.mp hd
    have hs : 0 < Real.sqrt r := Real.sqrt_pos.mpr hr
    rw [Ideal.rsqrt_coe, if_neg (not_lt.mpr hr.le), if_neg hr.ne', Ideal.sqrt_coe, if_neg (not_lt.mpr hr.le)]
    unfold Ideal.div
    rw [if_neg (by exact_mod_cast hs.ne'), ← EReal.coe_inv]

/-! ## The row scaling -/

/-- d(ρ): the mean of the row's squares plus ε. -/
def dn (ρ : Fin 1024 → EReal) : EReal := Ideal.div (∑ k : Fin 1024, ρ k * ρ k) n1024 + eps

theorem dn_pos (ρ : Fin 1024 → EReal) : 0 < dn ρ :=
  add_eps_pos _ (div_1024_nonneg _ (Finset.sum_nonneg fun k _ => mul_self_nonneg (ρ k)))

/-- The scaled row, by the reciprocal square root and by the square root. -/
def xgK (ρ : Fin 1024 → EReal) (c : Fin 1024) : EReal := ρ c * Ideal.rsqrt (dn ρ)
def xgR (ρ : Fin 1024 → EReal) (c : Fin 1024) : EReal := Ideal.div (ρ c) (Ideal.sqrt (dn ρ))

theorem xgK_eq_xgR (ρ : Fin 1024 → EReal) (c : Fin 1024) : xgK ρ c = xgR ρ c := mul_rsqrt _ _ (dn_pos ρ)

/-- A validity bit as a number. -/
def bitR (w : BitVec 1) : EReal := ((w.toNat : ℝ) : EReal)

theorem bitR_nonneg (w : BitVec 1) : 0 ≤ bitR w := EReal.coe_nonneg.mpr (Nat.cast_nonneg _)

/-- The masked square of a scaled entry. -/
def sqK (ρ : Fin 1024 → EReal) (v : EReal) (c : Fin 1024) : EReal := (xgK ρ c * xgK ρ c) * v
def sqR (ρ : Fin 1024 → EReal) (v : EReal) (c : Fin 1024) : EReal := (xgR ρ c * xgR ρ c) * v

theorem sqK_eq_sqR (ρ : Fin 1024 → EReal) (v : EReal) (c : Fin 1024) : sqK ρ v c = sqR ρ v c := by
  unfold sqK sqR; rw [xgK_eq_xgR]

theorem sqK_nonneg (ρ : Fin 1024 → EReal) (v : EReal) (hv : 0 ≤ v) (c : Fin 1024) : 0 ≤ sqK ρ v c :=
  EReal.mul_nonneg (mul_self_nonneg _) hv

/-! ## The arrays -/

abbrev SX : Shape := ⟨3, ![2048, 16, 1024]⟩
abbrev SC : Shape := ⟨1, ![1024]⟩
abbrev SP : Shape := ⟨2, ![16, 2048]⟩
abbrev ST : Shape := ⟨2, ![2048, 16]⟩

/-- Row (t, b) of x. -/
def row (X : SX.Idx → EReal) (t : Fin 2048) (b : Fin 16) : Fin 1024 → EReal := fun k => X (ix3 t b k)

/-- Token (t, b) is valid when its padding bit is clear. -/
def vbit (pad : SP.Idx → BitVec 1) (t : Fin 2048) (b : Fin 16) : BitVec 1 := ~~~(pad (ix2 b t))

/-- The channel statistic S_c. -/
def stat (X : SX.Idx → EReal) (pad : SP.Idx → BitVec 1) (c : Fin 1024) : EReal :=
  ∑ t : Fin 2048, ∑ b : Fin 16, sqK (row X t b) (bitR (vbit pad t b)) c

theorem stat_nonneg (X : SX.Idx → EReal) (pad : SP.Idx → BitVec 1) (c : Fin 1024) : 0 ≤ stat X pad c :=
  Finset.sum_nonneg fun t _ => Finset.sum_nonneg fun b _ => sqK_nonneg _ _ (bitR_nonneg _) c

/-- The number of valid tokens. -/
def count (pad : SP.Idx → BitVec 1) : EReal := ∑ i : ST.Idx, bitR (vbit pad (i 0) (i 1))

/-- The result at one entry, in the two spellings. -/
def outK (ρ : Fin 1024 → EReal) (s n wc bc : EReal) (c : Fin 1024) : EReal :=
  wc * (xgK ρ c * Ideal.rsqrt (Ideal.div s n + eps)) + bc
def outR (ρ : Fin 1024 → EReal) (s n wc bc : EReal) (c : Fin 1024) : EReal :=
  wc * Ideal.div (xgR ρ c) (Ideal.sqrt (Ideal.div s n + eps)) + bc

/-- With a non-negative statistic and a count that is a real n ≥ 1 the two spellings agree. -/
theorem outK_eq_outR (ρ : Fin 1024 → EReal) (s n wc bc : EReal) (c : Fin 1024) (hs : 0 ≤ s)
    (hn : ∃ r : ℝ, 1 ≤ r ∧ n = (r : EReal)) : outK ρ s n wc bc c = outR ρ s n wc bc c := by
  obtain ⟨r, hr, rfl⟩ := hn
  unfold outK outR
  rw [mul_rsqrt _ _ (add_eps_pos _ (div_real_nonneg s hs r hr)), xgK_eq_xgR]

/-- THE RESULT ARRAY. -/
def G (X : SX.Idx → EReal) (w bias : SC.Idx → EReal) (pad : SP.Idx → BitVec 1) : SX.Idx → EReal := fun i =>
  outK (row X (i 0) (i 1)) (stat X pad (i 2)) (count pad) (w (ix1 (i 2))) (bias (ix1 (i 2))) (i 2)

end Cert.Spec

end
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.KPay.lean ====
/-
  The two kernel bodies' arithmetic, read at one entry.

  First body (the statistic): from a block x₀ of 128 × 16 channel rows, the block's validity numbers v and the running
  statistic acc, it leaves  acc_r + ∑ₖ (scaled row)_r² · v  summed over the block's 2048 rows k = 16 p + q, where row
  (p, q) is scaled by the reciprocal square root of its mean square plus ε.
  Second body (the result): from a block x₀, the statistic's quotient var and the affine pair (w, bias), entry
  (p, q, r) is  w_r · ((scaled row)_r · (var_r + ε)^(-1/2)) + bias_r.
  The layout steps between are re-indexings: a kept unit axis, a broadcast along it, the two leading axes flattened,
  a vector viewed as a 1 × 1 × n array and spread over the block.
-/
import proofs.«100372_j2413771621060_2_alg».proof.Proof.Gen.KernelIdeal.Skeleton
import proofs.«100372_j2413771621060_2_alg».proof.Proof.Spec
import proofs.«100372_j2413771621060_2_alg».proof.Proof.LibRank3Layout
import proofs.«100372_j2413771621060_2_alg».proof.Proof.LibIdx
import Idealize.ShloMosaic.Lib.ValueIdx
import Idealize.ShloMosaic.Lib.Pipeline.Value
import Idealize.ShloMosaic.PureOps.Ideal.Laws

noncomputable section

open scoped BigOperators

namespace Cert.KVal

open Idealize.ShloMosaic Idealize.ShloMosaic.ValueIdx Idealize.ShloMosaic.ValueLayout3
open Cert.KernelIdeal Cert.KernelIdeal.Gen Cert.Spec

/-- Row p and column q of position k = 16 p + q in a flattened 128 × 16 block. -/
abbrev kp (k : Fin 2048) : Fin 128 := ⟨k.val / 16, by omega⟩
abbrev kq (k : Fin 2048) : Fin 16 := ⟨k.val % 16, by omega⟩

/-- Channel row (p, q) of a block. -/
def brow (x0 : FVec Ideal S128x16x1024 .f32) (p : Fin 128) (q : Fin 16) : Fin 1024 → EReal := fun k => x0 (ix3 p q k)

/-- A row's sum of squares: the lane reduction of the squared block at (p, q). -/
theorem rowsq (x0 : FVec Ideal S128x16x1024 .f32) (h : S128x16x1024.Reduces [2] S128x16) (hφ : FKind.Formats .f32)
    (hacc : (0x00000000#32 : BitVec 32) = 0x00000000#32) (p : Fin 128) (q : Fin 16) :
    multiReduction .add [2] S128x16 (mulf x0 x0) 0x00000000#32 h hφ hacc (ix2 p q)
      = ∑ k : Fin 1024, brow x0 p q k * brow x0 p q k := by
  refine (Ideal.multiReduction_add_single (mulf x0 x0) _ h hφ hacc (ix2 p q)).trans ?_
  refine Finset.sum_congr rfl fun k _ => ?_
  have e : h.lift (ix2 p q) k = ix3 p q k := Cert.Proof.LibIdx.ix3_ext _ _ _ _ rfl rfl rfl
  rw [e]; rfl

/-- The scale of row (p, q): the kept-axis column of reciprocal square roots, read at (p, q, 0). -/
theorem scale_apply (x0 : FVec Ideal S128x16x1024 .f32) (h : S128x16x1024.Reduces [2] S128x16) (hφ : FKind.Formats .f32)
    (hacc : (0x00000000#32 : BitVec 32) = 0x00000000#32) (hc : S128x16.ShapeCasts S128x16x1)
    (p : Fin 128) (q : Fin 16) :
    rsqrt (addf (divf (shapeCast S128x16x1 (multiReduction .add [2] S128x16 (mulf x0 x0) 0x00000000#32 h hφ hacc) hc)
        (broadcast S128x16x1 (Scalar.ofBits (F := Ideal) .f32 0x44800000#32)))
        (broadcast S128x16x1 (Scalar.ofBits (F := Ideal) .f32 0x3727C5AC#32))) (ix3 p q (0 : Fin 1))
      = Ideal.rsqrt (dn (brow x0 p q)) := by
  show Ideal.rsqrt (Ideal.div (shapeCast S128x16x1 _ hc (ix3 p q (0 : Fin 1))) _ + _) = _
  rw [shapeCast_ab_ab1_apply, rowsq]
  rfl

/-- THE FIRST BODY at channel r: the running statistic plus the block's 2048 masked squares. -/
theorem k0_pay2_apply (x0 : FVec Ideal S128x16x1024 .f32) (v : FVec Ideal S128x16 .f32) (acc : FVec Ideal S1024 .f32)
    (r : Fin 1024) :
    k0_pay2 (F := Ideal) x0 v acc (ix1 r)
      = acc (ix1 r) + ∑ k : Fin 2048, sqK (brow x0 (kp k) (kq k)) (v (ix2 (kp k) (kq k))) r := by
  unfold k0_pay2
  dsimp only
  show shapeCast S1024 acc _ (ix1 r) + multiReduction .add [0] S1024 _ 0x00000000#32 _ _ _ (ix1 r) = _
  rw [shapeCast_self]
  refine congrArg (acc (ix1 r) + ·) ?_
  refine (Ideal.multiReduction_add_single _ _ reduces_S2048x1024_S1024 _ _ (ix1 r)).trans ?_
  show ∑ k : Fin 2048, _ = _
  refine Finset.sum_congr rfl fun k _ => ?_
  have e : reduces_S2048x1024_S1024.lift (ix1 r) k = ix2 (n0 := 2048) (n1 := 1024) k r :=
    Cert.Proof.LibIdx.ix2_ext _ _ _ rfl rfl
  rw [e, shapeCast_abc_nc_apply _ _ k (kp k) (kq k) r (by show k.val = k.val / 16 * 16 + k.val % 16; omega)]
  simp only [mulf_apply]
  rw [broadcastTo_ab1_abc_apply, broadcastTo_ab1_abc_apply, scale_apply, shapeCast_ab_ab1_apply, shapeCast_self]
  rfl

/-- A channel vector viewed as 1 × 1 × n and spread over a block reads, at (p, q, r), the vector at r. -/
theorem bcast_c_apply {α : Type} (y : S1024.Idx → α) (hc : S1024.ShapeCasts S1x1x1024)
    (hb : S1x1x1024.Broadcasts S128x16x1024) (p : Fin 128) (q : Fin 16) (r : Fin 1024) :
    broadcastTo S128x16x1024 (shapeCast S1x1x1024 y hc) hb (ix3 p q r) = y (ix1 r) := by
  refine (broadcastTo_apply (shapeCast S1x1x1024 y hc) hb (ix3 p q r) (ix3 (0 : Fin 1) (0 : Fin 1) r) fun ax => ?_).trans ?_
  · match ax with
    | ⟨0, _⟩ => rfl
    | ⟨1, _⟩ => rfl
    | ⟨2, _⟩ => rfl
  · exact shapeCast_apply y hc _ _ (by
      rw [Shape.rowMajor_val_three, Shape.rowMajor_val_one]
      show r.val = (0 * 1 + 0) * 1024 + r.val
      omega)

/-- THE SECOND BODY at (p, q, r): the scaled entry, rescaled by the statistic's reciprocal square root, then the
    affine map. -/
theorem k1_pay1_apply (x0 : FVec Ideal S128x16x1024 .f32) (var w bias : FVec Ideal S1024 .f32)
    (p : Fin 128) (q : Fin 16) (r : Fin 1024) :
    k1_pay1 (F := Ideal) x0 var w bias (ix3 p q r)
      = w (ix1 r) * (xgK (brow x0 p q) r * Ideal.rsqrt (var (ix1 r) + eps)) + bias (ix1 r) := by
  unfold k1_pay1
  dsimp only
  simp only [addf_apply, mulf_apply]
  rw [bcast_c_apply, bcast_c_apply, bcast_c_apply, broadcastTo_ab1_abc_apply, scale_apply, shapeCast_self]
  rfl

end Cert.KVal

end
-- ==== Proof.LibTileSum.lean ====
/-
  A sum over a 2048 × 16 grid, taken tile by tile.

  The pairs (t, b) with t < 2048 and b < 16 are cut into 16 tiles: tile s holds the 128 consecutive rows
  t = 128 s + p, p < 128. Inside a tile the 128 × 16 pairs (p, b) are numbered r = 16 p + b < 2048, so that
  p = r / 16 and b = r % 16. The map (s, r) ↦ (128 s + r / 16, r % 16) is a bijection from pairs (s, r) with
  s < 16, r < 2048 onto pairs (t, b) with t < 2048, b < 16; its inverse is (t, b) ↦ (t / 128, 16 (t % 128) + b).
  A finite sum in a commutative monoid is unchanged by re-indexing along a bijection, and a sum over pairs is an
  iterated sum; so the sum tile by tile is the sum over the whole grid.
-/
import Mathlib.Data.Fintype.BigOperators
import Mathlib.Algebra.BigOperators.Fin

namespace Cert.LibTileSum

/-- The bijection (s, r) ↦ (128 s + r / 16, r % 16) between tile-and-position pairs and grid pairs. -/
def tileEquiv : Fin 16 × Fin 2048 ≃ Fin 2048 × Fin 16 where
  toFun p := (⟨128 * p.1.val + p.2.val / 16, by omega⟩, ⟨p.2.val % 16, by omega⟩)
  invFun q := (⟨q.1.val / 128, by omega⟩, ⟨16 * (q.1.val % 128) + q.2.val, by omega⟩)
  left_inv p := by
    apply Prod.ext <;> apply Fin.ext <;> simp only <;> omega
  right_inv q := by
    apply Prod.ext <;> apply Fin.ext <;> simp only <;> omega

/-- The sum over the 2048 × 16 grid, taken over 16 tiles of 128 rows, position r = 16 p + b inside a tile. -/
theorem sum_tiles {M : Type*} [AddCommMonoid M] (f : Fin 2048 → Fin 16 → M) :
    ∑ s : Fin 16, ∑ r : Fin 2048, f ⟨128 * s.val + r.val / 16, by omega⟩ ⟨r.val % 16, by omega⟩
      = ∑ t : Fin 2048, ∑ b : Fin 16, f t b :=
  calc ∑ s : Fin 16, ∑ r : Fin 2048, f ⟨128 * s.val + r.val / 16, by omega⟩ ⟨r.val % 16, by omega⟩
      = ∑ p : Fin 16 × Fin 2048, f (tileEquiv p).1 (tileEquiv p).2 :=
        (Fintype.sum_prod_type' fun (s : Fin 16) (r : Fin 2048) =>
          f ⟨128 * s.val + r.val / 16, by omega⟩ ⟨r.val % 16, by omega⟩).symm
    _ = ∑ q : Fin 2048 × Fin 16, f q.1 q.2 := Fintype.sum_equiv tileEquiv _ _ fun _ => rfl
    _ = ∑ t : Fin 2048, ∑ b : Fin 16, f t b := Fintype.sum_prod_type' f

end Cert.LibTileSum
-- ==== Proof.KReg0.lean ====
/-
  The first grid: the channel statistic.

  Sixteen points, point s holding rows 128 s … 128 s + 127 of x and of the validity numbers.  The output block is the
  whole statistic vector and stays resident; point 0 clears it first.  So after point n the buffer holds
  0 + P₀ + … + Pₙ, where P_s is the block's sum of masked squares, and the one write-back, after point 15, leaves
  the sum over all sixteen tiles: the sum over every token (t, b), taken tile by tile.
-/
import proofs.«100372_j2413771621060_2_alg».proof.Proof.Gen.KernelIdeal.Frame
import proofs.«100372_j2413771621060_2_alg».proof.Proof.KPay
import proofs.«100372_j2413771621060_2_alg».proof.Proof.LibTileSum
import Idealize.ShloMosaic.Lib.Pipeline.Value
import Idealize.ShloMosaic.Lib.Tactic

set_option maxRecDepth 16384

noncomputable section

open scoped BigOperators

namespace Cert.KReg0

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KVal

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

section Cases
variable {F : FTy → Type} [FloatOps F]

/-- A later point: the body leaves the first body's value of the two input blocks and the running statistic. -/
theorem out_B (c : Dev nD) (i : grid0.Coords) (a1 : Memref sig .tc .vmem S128x16x1024 .f32) (h1 : a1.IsWhole)
    (a2 : Memref sig .tc .vmem S128x16 .f32) (h2 : a2.IsWhole) (a3 : Memref sig .tc .vmem S1024 .f32) (h3 : a3.IsWhole)
    (hc : ¬cond0_0 i) (x0 : Vec F S128x16x1024 .f32) (x1 : Vec F S128x16 .f32) (xo : Vec F S1024 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz1]
  simp only [View.readAt_eq_ld, h1.read_unread, h2.read_unread, h3.read_unread,
    View.ld_unit_zero (S := S128x16x1024) hz3, View.ld_unit_zero (S := S128x16) hz2, View.ld_unit_zero (S := S1024) hz1]

/-- The first point: the body clears the statistic, then leaves the first body's value over the cleared vector. -/
theorem out_A (c : Dev nD) (i : grid0.Coords) (a1 : Memref sig .tc .vmem S128x16x1024 .f32) (h1 : a1.IsWhole)
    (a2 : Memref sig .tc .vmem S128x16 .f32) (h2 : a2.IsWhole) (a3 : Memref sig .tc .vmem S1024 .f32) (h3 : a3.IsWhole)
    (hc : cond0_0 i) (x0 : Vec F S128x16x1024 .f32) (x1 : Vec F S128x16 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1024) hz1, View.readCov_unit_zero (S := S1024) _ hz1]
  simp only [View.readAt_eq_ld, h1.read_unread, h2.read_unread,
    View.ld_unit_zero (S := S128x16x1024) hz3, View.ld_unit_zero (S := S128x16) hz2]

end Cases

/-! ## The blocks, read off the arrays the grid finds -/

section Sum

variable (V : (c : Dev nD) → (b : Ref sig .tc) → Buf (Elt Ideal) ((c : Thread nD τ).loc b))

/-- Point t's blocks start at row 128 t of x and of the validity numbers; the statistic's block never moves. -/
theorem idx_facts0 : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

theorem row_lt (t : Fin cfg0.N) (p : Fin 128) : 128 * t.val + p.val < 2048 := by
  have hN : cfg0.N = 16 := N_0
  have := t.isLt; have := p.isLt; omega

/-- Entry (p, q, k) of point t's block of x is x at (128 t + p, q, k). -/
theorem iblk0_0_apply (c : Dev nD) (t : Fin cfg0.N) (p : Fin 128) (q : Fin 16) (k : Fin 1024) :
    iblk0 V c 0 t (ix3 p q k) = V c main_arg0 (ix3 ⟨128 * t.val + p.val, row_lt t p⟩ q k) := by
  unfold iblk0
  rw [View.read_apply]
  show V c main_arg0 (((cfg0.win 0).blk t).view.emb (ix3 p q k)) = _
  refine congrArg (V c main_arg0) (funext fun a => Fin.ext ?_)
  obtain ⟨e0, e1, e2, -, -⟩ := idx_facts0 t
  match a with
  | ⟨0, _⟩ => show win0_0.index t (0 : Fin 3) * 128 + 1 * p.val = 128 * t.val + p.val; rw [e0]; omega
  | ⟨1, _⟩ => show win0_0.index t (1 : Fin 3) * 16 + 1 * q.val = q.val; rw [e1]; omega
  | ⟨2, _⟩ => show win0_0.index t (2 : Fin 3) * 1024 + 1 * k.val = k.val; rw [e2]; omega

/-- Entry (p, q) of point t's block of validity numbers is the array at (128 t + p, q). -/
theorem iblk0_1_apply (c : Dev nD) (t : Fin cfg0.N) (p : Fin 128) (q : Fin 16) :
    iblk0 V c 1 t (ix2 p q) = V c main_v2 (ix2 ⟨128 * t.val + p.val, row_lt t p⟩ q) := by
  unfold iblk0
  rw [View.read_apply]
  show V c main_v2 (((cfg0.win 1).blk t).view.emb (ix2 p q)) = _
  refine congrArg (V c main_v2) (funext fun a => Fin.ext ?_)
  obtain ⟨-, -, -, e3, e4⟩ := idx_facts0 t
  match a with
  | ⟨0, _⟩ => show win0_1.index t (0 : Fin 2) * 128 + 1 * p.val = 128 * t.val + p.val; rw [e3]; omega
  | ⟨1, _⟩ => show win0_1.index t (1 : Fin 2) * 16 + 1 * q.val = q.val; rw [e4]; omega

/-! ## The running statistic -/

/-- Tile s's addend at channel r: its 2048 masked squares, position k = 16 p + q inside the tile. -/
def part (X : SX.Idx → EReal) (vn : ST.Idx → EReal) (s : Fin 16) (r : Fin 1024) : EReal :=
  ∑ k : Fin 2048, sqK (row X ⟨128 * s.val + k.val / 16, by omega⟩ ⟨k.val % 16, by omega⟩)
    (vn (ix2 ⟨128 * s.val + k.val / 16, by omega⟩ ⟨k.val % 16, by omega⟩)) r

/-- The same over all naturals: nothing past the sixteenth tile. -/
def partN (X : SX.Idx → EReal) (vn : ST.Idx → EReal) (s : ℕ) (r : Fin 1024) : EReal :=
  if h : s < 16 then part X vn ⟨s, h⟩ r else 0

/-- What point t's blocks contribute is tile t's addend. -/
theorem tile_eq (c : Dev nD) (t : Fin cfg0.N) (r : Fin 1024) :
    ∑ k : Fin 2048, sqK (brow (iblk0 V c 0 t) (kp k) (kq k)) (iblk0 V c 1 t (ix2 (kp k) (kq k))) r
      = partN (V c main_arg0) (V c main_v2) t.val r := by
  have hN : cfg0.N = 16 := N_0
  have ht : t.val < 16 := by have := t.isLt; omega
  unfold partN
  rw [dif_pos ht]
  unfold part
  refine Finset.sum_congr rfl fun k _ => ?_
  have hb : brow (iblk0 V c 0 t) (kp k) (kq k)
      = row (V c main_arg0) ⟨128 * t.val + k.val / 16, by omega⟩ ⟨k.val % 16, by omega⟩ :=
    funext fun j => iblk0_0_apply V c t (kp k) (kq k) j
  rw [hb, iblk0_1_apply V c t (kp k) (kq k)]

/-- After point n the statistic's buffer holds the addends of tiles 0 … n: by induction on the point. -/
theorem outsAt_eq (c : Dev nD) : ∀ (n : ℕ) (h : n < cfg0.N) (r : Fin 1024),
    outsAt0 V c n h (ix1 r) = ∑ s ∈ Finset.range (n + 1), partN (V c main_arg0) (V c main_v2) s r
  | 0, h, r => by
    rw [outsAt0_A V c ⟨0, h⟩ rfl, out_A]
    refine (k0_pay2_apply (iblk0 V c 0 ⟨0, h⟩) (iblk0 V c 1 ⟨0, h⟩) (k0_pay1 (F := Ideal)) r).trans ?_
    rw [tile_eq V c ⟨0, h⟩ r]
    show Ideal.ofBits .f32 0x00000000#32 + _ = _
    rw [Ideal.ofBits_zero_f32, zero_add, Finset.sum_range_one]
  | n + 1, h, r => by
    have hN : cfg0.N = 16 := N_0
    have hB : ¬(⟨n + 1, h⟩ : Fin cfg0.N).val % 16 = 0 := by dsimp only; omega
    rw [outsAt0_B V c ⟨n + 1, h⟩ hB, out_B]
    refine (k0_pay2_apply (iblk0 V c 0 ⟨n + 1, h⟩) (iblk0 V c 1 ⟨n + 1, h⟩) _ r).trans ?_
    rw [tile_eq V c ⟨n + 1, h⟩ r]
    show outsAt0 V c n _ (ix1 r) + _ = _
    rw [outsAt_eq c n _ r, Finset.sum_range_succ _ (n + 1)]

/-! ## The statistic -/

/-- The statistic as the grid leaves it: over every token (t, b), the scaled entry squared times the token's number. -/
def result (c : Dev nD) : SC.Idx → EReal := fun i =>
  ∑ t : Fin 2048, ∑ b : Fin 16, sqK (row (V c main_arg0) t b) (V c main_v2 (ix2 t b)) (i 0)

/-- After the last point the buffer holds it: sixteen tiles' addends are the sum over every token. -/
theorem outs_last (c : Dev nD) (h : 15 < cfg0.N) : outsAt0 V c 15 h = result V c := by
  funext i
  obtain ⟨r, rfl⟩ : ∃ r : Fin 1024, i = ix1 r := ⟨i 0, eq_ix1 i⟩
  rw [outsAt_eq V c 15 h r]
  show ∑ s ∈ Finset.range 16, partN (V c main_arg0) (V c main_v2) s r = _
  rw [Finset.sum_range fun s => partN (V c main_arg0) (V c main_v2) s r]
  have e : ∀ s : Fin 16, partN (V c main_arg0) (V c main_v2) s.val r = part (V c main_arg0) (V c main_v2) s r :=
    fun s => by unfold partN; rw [dif_pos s.isLt]
  simp only [e]
  unfold part
  exact Cert.LibTileSum.sum_tiles fun t b => sqK (row (V c main_arg0) t b) (V c main_v2 (ix2 t b)) r

/-- The one write-back, after the last point, writes it: the statistic's block is the whole vector. -/
theorem flushed_eq (c : Dev nD) (t : Fin cfg0.N) (hf : (cfg0.win 2).flush t = true) :
    (dat0 V c).flushed 2 t = ((cfg0.win 2).blk t).view.read (Elt Ideal) (result V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, show outsAt0 V c t0_15.val t0_15.isLt = result V c from outs_last V c _]
  have hz' : (fun a => win0_2.index t0_15 a * main_v4.ty.shape.size a) = fun _ => 0 :=
    funext fun a => by fin_cases a; decide
  exact (Memref.read_access_unit_zero (Elt Ideal) main_v4 hz' (fun a => by rw [congrFun hz' a]; simp) (result V c)).symm

/-- So the statistic's array ends holding the sum over every token. -/
theorem final0 (c : Dev nD) : (dat0 V c).arrAt 2 cfg0.N = result V c :=
  (dat0 V c).arrAt_eq_of_cover 2 (result V c) (flushed_eq V c) fun i =>
    ⟨t0_15, (flush0_2 t0_15).mpr rfl, by
      show i ∈ ((View.whole main_v4).slice (win0_2.rect t0_15)).set
      rw [View.set_slice_whole, Rect.mem_set_unit]
      intro a
      have h0 : (i 0 : Nat) < 1024 := (i 0).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1024 from by decide +kernel]
        omega⟩

end Sum

end Cert.KReg0

end
-- ==== Proof.KReg1.lean ====
/-
  The second grid of the kernel, as one function of the arrays it finds.

  The grid has 16 points t. At point t the body reads rows 128 t … 128 t + 127 of x (a block of 128 × 16 channel
  rows), the whole statistic quotient var and the whole affine pair (w, bias), and writes the block of the same rows
  of the result: entry (p, q, r) of the block is  w_r · ((scaled row)_r · (var_r + ε)^(-1/2)) + bias_r  for the row
  (128 t + p, q) of x, scaled by the reciprocal square root of its mean square plus ε.

  An entry (p, q, r) of a block at block index (t, 0, 0) sits in its array at (128 t + p, q, r): on each axis the block
  index times the block's size plus the coordinate inside the block; a window whose block is its whole array reads
  the array itself. So what point t writes back is block t of the array
      res(i₀, i₁, i₂) = w_{i₂} · (xgK(row(i₀, i₁))_{i₂} · (var_{i₂} + ε)^(-1/2)) + bias_{i₂}.
  Every point writes its block back, and row i₀ lies in the block of point t = i₀ / 128, so the sixteen blocks cover
  the array: after the grid the result array holds res.
-/
import proofs.«100372_j2413771621060_2_alg».proof.Proof.Gen.KernelIdeal.Frame
import proofs.«100372_j2413771621060_2_alg».proof.Proof.KPay
import Idealize.ShloMosaic.Lib.Pipeline.Value

set_option maxRecDepth 16384

noncomputable section

open scoped BigOperators

namespace Cert.KReg1

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KVal

variable (V : (c : Dev nD) → (b : Ref sig .tc) → Buf (Elt Ideal) ((c : Thread nD τ).loc b))

/-- Entry (t, b, c) of the result from the four operand arrays. -/
def res (X : SX.Idx → EReal) (w bias var : SC.Idx → EReal) : SX.Idx → EReal := fun i =>
  w (ix1 (i 2)) * (xgK (row X (i 0) (i 1)) (i 2) * Ideal.rsqrt (var (ix1 (i 2)) + eps)) + bias (ix1 (i 2))

theorem hz3 : (![0, 0, 0] : Fin 3 → Nat) = fun _ => 0 := funext fun a => by fin_cases a <;> rfl
theorem hz1 : (![0] : Fin 1 → Nat) = fun _ => 0 := funext fun a => by fin_cases a <;> rfl

/-- The block indices over the grid: the x window and the result window are at (t, 0, 0), the three vector windows
    at (0). -/
theorem idx_facts : ∀ t : Fin cfg1.N, win1_0.index t (0 : Fin 3) = t.val ∧ win1_0.index t (1 : Fin 3) = 0
    ∧ win1_0.index t (2 : Fin 3) = 0 ∧ win1_4.index t (0 : Fin 3) = t.val ∧ win1_4.index t (1 : Fin 3) = 0
    ∧ win1_4.index t (2 : Fin 3) = 0 ∧ win1_1.index t (0 : Fin 1) = 0 ∧ win1_2.index t (0 : Fin 1) = 0
    ∧ win1_3.index t (0 : Fin 1) = 0 :=
  (by decide +kernel : ∀ t : Fin grid1.N, _)

/-- The grid has 16 points. -/
theorem lt16 (t : Fin cfg1.N) : t.val < 16 := by
  have hN : cfg1.N = 16 := N_1
  have := t.isLt
  omega

/-- Row p of block t is row 128 t + p of the array. -/
abbrev grow (t : Fin cfg1.N) (p : Fin 128) : Fin 2048 := ⟨128 * t.val + p.val, by have := lt16 t; omega⟩

/-! ## The blocks the body reads -/

/-- The x block at point t, entry (p, q, k): the array at (128 t + p, q, k). -/
theorem iblk1_0_apply (c : Dev nD) (t : Fin cfg1.N) (p : Fin 128) (q : Fin 16) (k : Fin 1024) :
    iblk1 V c 0 t (ix3 p q k) = V c main_arg0 (ix3 (grow t p) q k) := by
  obtain ⟨e0, e1, e2, -⟩ := idx_facts t
  unfold iblk1
  rw [View.read_apply]
  show V c main_arg0 (((cfg1.win 0).blk t).view.emb (ix3 p q k)) = _
  refine congrArg _ (funext fun a => Fin.ext ?_)
  match a with
  | ⟨0, _⟩ => show win1_0.index t (0 : Fin 3) * 128 + 1 * p.val = 128 * t.val + p.val; omega
  | ⟨1, _⟩ => show win1_0.index t (1 : Fin 3) * 16 + 1 * q.val = q.val; omega
  | ⟨2, _⟩ => show win1_0.index t (2 : Fin 3) * 1024 + 1 * k.val = k.val; omega

/-- The w block is the array. -/
theorem iblk1_1_apply (c : Dev nD) (t : Fin cfg1.N) (r : Fin 1024) :
    iblk1 V c 1 t (ix1 r) = V c main_arg1 (ix1 r) := by
  obtain ⟨-, -, -, -, -, -, e, -⟩ := idx_facts t
  unfold iblk1
  rw [View.read_apply]
  show V c main_arg1 (((cfg1.win 1).blk t).view.emb (ix1 r)) = _
  refine congrArg _ (funext fun a => Fin.ext ?_)
  match a with
  | ⟨0, _⟩ => show win1_1.index t (0 : Fin 1) * 1024 + 1 * r.val = r.val; omega

/-- The bias block is the array. -/
theorem iblk1_2_apply (c : Dev nD) (t : Fin cfg1.N) (r : Fin 1024) :
    iblk1 V c 2 t (ix1 r) = V c main_arg2 (ix1 r) := by
  obtain ⟨-, -, -, -, -, -, -, e, -⟩ := idx_facts t
  unfold iblk1
  rw [View.read_apply]
  show V c main_arg2 (((cfg1.win 2).blk t).view.emb (ix1 r)) = _
  refine congrArg _ (funext fun a => Fin.ext ?_)
  match a with
  | ⟨0, _⟩ => show win1_2.index t (0 : Fin 1) * 1024 + 1 * r.val = r.val; omega

/-- The var block is the array. -/
theorem iblk1_3_apply (c : Dev nD) (t : Fin cfg1.N) (r : Fin 1024) :
    iblk1 V c 3 t (ix1 r) = V c main_v6 (ix1 r) := by
  obtain ⟨-, -, -, -, -, -, -, -, e⟩ := idx_facts t
  unfold iblk1
  rw [View.read_apply]
  show V c main_v6 (((cfg1.win 3).blk t).view.emb (ix1 r)) = _
  refine congrArg _ (funext fun a => Fin.ext ?_)
  match a with
  | ⟨0, _⟩ => show win1_3.index t (0 : Fin 1) * 1024 + 1 * r.val = r.val; omega

/-- Channel row (p, q) of the x block at point t is channel row (128 t + p, q) of the array. -/
theorem brow_iblk1 (c : Dev nD) (t : Fin cfg1.N) (p : Fin 128) (q : Fin 16) :
    brow (iblk1 V c 0 t) p q = row (V c main_arg0) (grow t p) q :=
  funext fun k => iblk1_0_apply V c t p q k

/-- Entry (p, q, r) of the result block at point t sits in the array at (128 t + p, q, r). -/
theorem emb4 (t : Fin cfg1.N) (p : Fin 128) (q : Fin 16) (r : Fin 1024) :
    ((cfg1.win 4).blk t).view.emb (ix3 p q r) = ix3 (grow t p) q r := by
  obtain ⟨-, -, -, e0, e1, e2, -⟩ := idx_facts t
  refine funext fun a => Fin.ext ?_
  match a with
  | ⟨0, _⟩ => show win1_4.index t (0 : Fin 3) * 128 + 1 * p.val = 128 * t.val + p.val; omega
  | ⟨1, _⟩ => show win1_4.index t (1 : Fin 3) * 16 + 1 * q.val = q.val; omega
  | ⟨2, _⟩ => show win1_4.index t (2 : Fin 3) * 1024 + 1 * r.val = r.val; omega

/-! ## What a point writes back -/

/-- WHAT POINT t WRITES BACK is block t of res of the arrays as the grid finds them. -/
theorem flushed_eq (c : Dev nD) (t : Fin cfg1.N) :
    (dat1 (F := Ideal) V c).flushed 4 t
      = ((cfg1.win 4).blk t).view.read (Elt Ideal) (res (V c main_arg0) (V c main_arg1) (V c main_arg2) (V c main_v6)) := by
  show (cfg1.win 4).cut (grid1.coords t) ((dat1 V c).after 4 t) = _
  rw [after1_4]
  unfold out1_4
  rw [View.canon_unit_zero hz3]
  simp only [View.ld_unit_zero (S := S128x16x1024) hz3, View.ld_unit_zero (S := S1024) hz1]
  funext j
  obtain ⟨p, q, r, rfl⟩ : ∃ (p : Fin 128) (q : Fin 16) (r : Fin 1024), j = ix3 p q r := ⟨j 0, j 1, j 2, eq_ix3 j⟩
  refine (k1_pay1_apply (iblk1 V c 0 t) (iblk1 V c 3 t) (iblk1 V c 1 t) (iblk1 V c 2 t) p q r).trans ?_
  rw [View.read_apply]
  show _ = res (V c main_arg0) (V c main_arg1) (V c main_arg2) (V c main_v6) (((cfg1.win 4).blk t).view.emb (ix3 p q r))
  rw [emb4, brow_iblk1, iblk1_1_apply, iblk1_2_apply, iblk1_3_apply]
  rfl

/-! ## The blocks cover the array -/

/-- An index of the array is in point t's block iff each coordinate is in the block's range on its axis. -/
theorem mem_blk (t : Fin cfg1.N) (i : S2048x16x1024.Idx) :
    i ∈ ((cfg1.win 4).blk t).view.set ↔ ∀ a : Fin 3, win1_4.index t a * S128x16x1024.size a ≤ (i a).val
      ∧ (i a).val < win1_4.index t a * S128x16x1024.size a + S128x16x1024.size a := by
  show i ∈ ((View.whole main_v7).slice (win1_4.rect t)).set ↔ _
  rw [View.set_slice_whole, Rect.mem_set_unit]
  exact Iff.rfl

/-- Every index of the array is in the block of the point t = i₀ / 128, which writes it back. -/
theorem cover (i : S2048x16x1024.Idx) :
    ∃ t : Fin cfg1.N, (cfg1.win 4).flush t = true ∧ i ∈ ((cfg1.win 4).blk t).view.set := by
  have hN : cfg1.N = 16 := N_1
  have hi0 : (i 0).val < 2048 := (i 0).isLt
  have hi1 : (i 1).val < 16 := (i 1).isLt
  have hi2 : (i 2).val < 1024 := (i 2).isLt
  obtain ⟨t, ht⟩ : ∃ t : Fin cfg1.N, t.val = (i 0).val / 128 := ⟨⟨(i 0).val / 128, by omega⟩, rfl⟩
  obtain ⟨-, -, -, e0, e1, e2, -⟩ := idx_facts t
  refine ⟨t, flush1_4 t, ?_⟩
  rw [mem_blk]
  intro a
  match a with
  | ⟨0, _⟩ =>
    show win1_4.index t (0 : Fin 3) * 128 ≤ (i 0).val ∧ (i 0).val < win1_4.index t (0 : Fin 3) * 128 + 128
    omega
  | ⟨1, _⟩ =>
    show win1_4.index t (1 : Fin 3) * 16 ≤ (i 1).val ∧ (i 1).val < win1_4.index t (1 : Fin 3) * 16 + 16
    omega
  | ⟨2, _⟩ =>
    show win1_4.index t (2 : Fin 3) * 1024 ≤ (i 2).val ∧ (i 2).val < win1_4.index t (2 : Fin 3) * 1024 + 1024
    omega

/-! ## The array after the grid -/

/-- THE RESULT ARRAY after the second grid is res of the four arrays the grid finds. -/
theorem final1 (c : Dev nD) :
    (dat1 (F := Ideal) V c).arrAt 4 cfg1.N = res (V c main_arg0) (V c main_arg1) (V c main_arg2) (V c main_v6) :=
  (dat1 (F := Ideal) V c).arrAt_eq_of_cover 4 (res (V c main_arg0) (V c main_arg1) (V c main_arg2) (V c main_v6))
    (fun t _ => flushed_eq V c t) cover

end Cert.KReg1

end
-- ==== Proof.KHost.lean ====
/-
  The host operations around the two grids, read as values.

  Before the first grid: the validity numbers are the padding bits negated, transposed to [2048, 16] and read as
  0 / 1, and their count is their sum from 0.  Between the grids: the statistic is divided, channel by channel, by the
  count spread over the channels.  No host operation and no grid writes an argument array, so each grid finds x, the
  weight and the bias as launched.
-/
import proofs.«100372_j2413771621060_2_alg».proof.Proof.Gen.KernelIdeal.Frame
import Idealize.ShloMosaic.Lib.StableHlo.Run

set_option maxRecDepth 16384

noncomputable section

namespace Cert.KHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The first grid finds x as launched. -/
theorem V1_arg0 (c : Dev nD) : V1 m ρ c main_arg0 = m ((c : Thread nD τ).loc main_arg0) := by
  show StableHlo.after hostOps0 (W0 m ρ c) (Proc.devRef .tc main_arg0) = _
  after_results

/-- The validity numbers the first grid finds. -/
theorem V1_v2 (c : Dev nD) : V1 m ρ c main_v2
    = uitofp .f32 (transpose S2048x16 [1, 0] (noti (m ((c : Thread nD τ).loc main_arg3))) transposes_S16x2048_S2048x16_1_0) := by
  show StableHlo.after hostOps0 (W0 m ρ c) (Proc.devRef .tc main_v2) = _
  after_results

/-- Their count. -/
theorem V1_v3 (c : Dev nD) : V1 m ρ c main_v3
    = Host.reduceAdd (uitofp .f32 (transpose S2048x16 [1, 0] (noti (m ((c : Thread nD τ).loc main_arg3))) transposes_S16x2048_S2048x16_1_0))
        (constant (F := F) S_ .f32 0x00000000#32) reducesTo_S2048x16_S_d0_1 h_S_ := by
  show StableHlo.after hostOps0 (W0 m ρ c) (Proc.devRef .tc main_v3) = _
  after_results

/-- The quotient the second grid finds: the statistic the first grid left over the count. -/
theorem V3_v6 (c : Dev nD) : V3 m ρ c main_v6
    = Host.divf ((dat0 (V1 m ρ) c).arrAt 2 cfg0.N) (broadcastInDim S1024 ![] bcast_S_S1024 (V1 m ρ c main_v3)) := by
  rw [← W2_arr m ρ c 2, show V1 m ρ c main_v3 = W2 m ρ c (Proc.devRef .tc main_v3) from (W2_of_ne m ρ c main_v3 (by decide)).symm]
  show StableHlo.after hostOps1 (W2 m ρ c) (Proc.devRef .tc main_v6) = _
  after_results

/-- The second grid finds x, the weight and the bias as launched. -/
theorem V3_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem V3_arg1 (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans (W4_main_arg1 m ρ c)
theorem V3_arg2 (c : Dev nD) : V3 m ρ c main_arg2 = m ((c : Thread nD τ).loc main_arg2) :=
  ((W4_arr m ρ c 2).trans (((dat1 (V3 m ρ) c).arrAt_in 2 rfl _).trans (A_eq1 (V3 m ρ) c 2))).symm.trans (W4_main_arg2 m ρ c)

end Cert.KHost

end
-- ==== Proof.KValue.lean ====
/-
  The idealized kernel's result array is the specification G of the launch arrays.

  The second grid leaves  w_c · (scaled_c · (var_c + ε)^(-1/2)) + bias_c  of the arrays it finds; it finds x, the weight
  and the bias as launched and var = statistic / count.  The statistic the first grid leaves is the sum over every token
  of the masked squares, the masks being the negated, transposed padding bits read as 0 / 1, and the count is the sum of
  those numbers from 0.
-/
import proofs.«100372_j2413771621060_2_alg».proof.Proof.Gen.KernelIdeal.Frame
import proofs.«100372_j2413771621060_2_alg».proof.Proof.KReg0
import proofs.«100372_j2413771621060_2_alg».proof.Proof.KReg1
import proofs.«100372_j2413771621060_2_alg».proof.Proof.KHost
import proofs.«100372_j2413771621060_2_alg».proof.Proof.Spec
import Idealize.ShloMosaic.Lib.Pipeline.Value
import Idealize.ShloMosaic.PureOps.Ideal.Laws

set_option maxRecDepth 16384

noncomputable section

open scoped BigOperators

namespace Cert.KValue

open Idealize.ShloMosaic Idealize.ShloMosaic.TcCoe Idealize.SL.Sem Idealize.ShloMosaic.ValueIdx
open Cert.KernelIdeal Cert.KernelIdeal.Gen Cert.Spec

/-- The validity number of token (t, b): the padding bit at (b, t), negated, read as 0 or 1. -/
theorem vn_apply (pad : IVec S16x2048 1) (h : S16x2048.Transposes [1, 0] S2048x16) (t : Fin 2048) (b : Fin 16) :
    (uitofp (F := Ideal) .f32 (transpose S2048x16 [1, 0] (noti pad) h)) (ix2 t b) = bitR (vbit pad t b) := by
  show FloatOps.uitofp (F := Ideal) .f32 (transpose S2048x16 [1, 0] (noti pad) h (ix2 t b)) = _
  rw [transpose_apply [1, 0] (noti pad) h (ix2 t b) (ix2 b t) (fun a => match a with | ⟨0, _⟩ => rfl | ⟨1, _⟩ => rfl)]
  rfl

/-- The float sum of the validity numbers from 0 is the count. -/
theorem count_apply (pad : IVec S16x2048 1) (h : S16x2048.Transposes [1, 0] S2048x16)
    (h' : S2048x16.ReducesTo [0, 1] S_) (hu : 0 < S_.numel) :
    Host.reduceAdd (F := Ideal) (uitofp .f32 (transpose S2048x16 [1, 0] (noti pad) h))
      (constant (F := Ideal) S_ .f32 0x00000000#32) h' hu ix0 = count pad := by
  simp only [Host.reduceAdd, Ideal.hostReduceAdd_def]
  rw [Ideal.hostReduceAdd_total h' (fun b => b.elim0)]
  show Ideal.ofBits .f32 0x00000000#32 + _ = _
  rw [Ideal.ofBits_zero_f32, zero_add]
  unfold Cert.Spec.count
  refine Finset.sum_congr rfl fun i _ => ?_
  exact (congrArg _ (eq_ix2 i)).trans (vn_apply pad h (i 0) (i 1))

/-- A scalar spread over the channels reads, at every channel, the scalar. -/
theorem bcast_scalar_apply (y : S_.Idx → EReal) (h : S_.BroadcastsInDim S1024 (![] : Fin 0 → Fin S1024.rank))
    (r : Fin 1024) : broadcastInDim S1024 ![] h y (ix1 r) = y ix0 :=
  broadcastInDim_apply _ h y (ix1 r) ix0 (fun a => a.elim0)

/-- The host quotient of two channel vectors, at a channel. -/
theorem hostDivf_apply (a b : FVec Ideal S1024 .f32) (i : S1024.Idx) : Host.divf a b i = Ideal.div (a i) (b i) := rfl

variable (m : (ℓ : Loc nD τ sig) → Buf (Elt Ideal) ℓ) (ρ : Dev nD → PrngReg)

/-- The statistic the first grid leaves is the specification's. -/
theorem stat_eq (c : Dev nD) (r : Fin 1024) :
    Cert.KReg0.result (V1 m ρ) c (ix1 r)
      = stat (m ((c : Thread nD τ).loc main_arg0)) (m ((c : Thread nD τ).loc main_arg3)) r := by
  unfold Cert.KReg0.result stat
  rw [Cert.KHost.V1_arg0 m ρ c, Cert.KHost.V1_v2 m ρ c]
  refine Finset.sum_congr rfl fun t _ => Finset.sum_congr rfl fun b _ => ?_
  rw [vn_apply]

/-- The quotient the second grid finds is the specification's statistic over its count. -/
theorem var_eq (c : Dev nD) (r : Fin 1024) :
    V3 m ρ c main_v6 (ix1 r)
      = Ideal.div (stat (m ((c : Thread nD τ).loc main_arg0)) (m ((c : Thread nD τ).loc main_arg3)) r)
          (Cert.Spec.count (m ((c : Thread nD τ).loc main_arg3))) := by
  refine (congrFun (Cert.KHost.V3_v6 m ρ c) (ix1 r)).trans ?_
  refine (hostDivf_apply ((dat0 (V1 m ρ) c).arrAt 2 cfg0.N)
    (broadcastInDim S1024 ![] bcast_S_S1024 (V1 m ρ c main_v3)) (ix1 r)).trans ?_
  refine congrArg₂ Ideal.div ?_ ?_
  · exact (congrFun (Cert.KReg0.final0 (V1 m ρ) c) (ix1 r)).trans (stat_eq m ρ c r)
  · have h1 : broadcastInDim S1024 ![] bcast_S_S1024 (V1 m ρ c main_v3) (ix1 r) = V1 m ρ c main_v3 ix0 :=
      bcast_scalar_apply (V1 m ρ c main_v3) bcast_S_S1024 r
    have h2 := congrFun (Cert.KHost.V1_v3 m ρ c) ix0
    have h3 := count_apply (m ((c : Thread nD τ).loc main_arg3)) transposes_S16x2048_S2048x16_1_0 reducesTo_S2048x16_S_d0_1 h_S_
    exact h1.trans (h2.trans h3)

/-- The second grid's function of arrays that are the launch arrays, with the quotient as above, is G. -/
theorem res_eq_G (X : SX.Idx → EReal) (w bias : SC.Idx → EReal) (pad : SP.Idx → BitVec 1)
    (X' : SX.Idx → EReal) (w' bias' var' : SC.Idx → EReal) (hX : X' = X) (hw : w' = w) (hb : bias' = bias)
    (hvar : ∀ r : Fin 1024, var' (ix1 r) = Ideal.div (stat X pad r) (Cert.Spec.count pad)) :
    Cert.KReg1.res X' w' bias' var' = G X w bias pad := by
  subst hX hw hb
  funext i
  obtain ⟨t, b, r, rfl⟩ : ∃ (t : Fin 2048) (b : Fin 16) (r : Fin 1024), i = ix3 t b r := ⟨i 0, i 1, i 2, eq_ix3 i⟩
  unfold Cert.KReg1.res G outK
  show _ * (_ * Ideal.rsqrt (var' (ix1 r) + eps)) + _ = _
  rw [hvar r]

/-- THE RESULT ARRAY after the run is G of the launch arrays. -/
theorem value (c : Dev nD) : W4 m ρ c (Proc.devRef .tc main_v7)
    = G (m ((c : Thread nD τ).loc main_arg0)) (m ((c : Thread nD τ).loc main_arg1))
        (m ((c : Thread nD τ).loc main_arg2)) (m ((c : Thread nD τ).loc main_arg3)) :=
  (W4_arr m ρ c 4).trans ((Cert.KReg1.final1 (V3 m ρ) c).trans
    (res_eq_G _ _ _ _ _ _ _ _ (Cert.KHost.V3_arg0 m ρ c) (Cert.KHost.V3_arg1 m ρ c) (Cert.KHost.V3_arg2 m ρ c)
      (var_eq m ρ c)))

end Cert.KValue

end
-- ==== Proof.LibCount.lean ====
/-
  Counting the ones of an array of bits, and asking whether there is any.

  An array of one-bit words is reduced two ways into a result with a single index.

  * By "or", from the initial value 0. A left fold by "or" over one-bit words that comes out 1 either started at 1 or
    met a 1 (by induction on the list: "c or d" is 1 only if c or d is). Started at 0, a result of 1 therefore
    exhibits an index whose bit is 1.

  * By 32-bit addition of the zero-extended bits, from the initial value 0. Over any finite set S of indices the fold
    has, as an unsigned number, the value (∑ i ∈ S, bᵢ) mod 2^32 (by induction on S: addition of 32-bit words is
    addition mod 2^32, and zero-extension keeps the value). Each bit is at most 1, so the sum over all indices is at
    most their number; while that is below 2^31 there is no wrap-around and the sign bit is clear, so the signed
    reading of the word is the number of ones.

  Read as extended reals, the count is the finite sum of the bits. That sum is at least 1 as soon as one bit is 1,
  every term being non-negative. The shape 2048 × 16 has 32768 < 2^31 indices.
-/
import Idealize.ShloMosaic.PureOps.Reduce
import Idealize.ShloMosaic.PureOps.Ideal

namespace Cert.LibCount

open Idealize.ShloMosaic

/-- The embedding of the reals into the extended reals commutes with finite sums. -/
private theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- On one-bit words "c or d" is 1 exactly when c is 1 or d is 1. -/
theorem ori_eq_one {c d : BitVec 1} : IntOp.ori c d = 1#1 ↔ c = 1#1 ∨ d = 1#1 := by revert c d; decide

/-- A left fold by "or" over one-bit words that came out 1 started at 1 or met a 1. -/
theorem foldl_ori_eq_one {ι : Type} (f : ι → BitVec 1) :
    ∀ (l : List ι) (init : BitVec 1),
      l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

variable {s t u : Shape} {axes : List (Fin s.rank)}

/-- A reduce by "or" from 0 into a result of one index that is 1 had a 1 at some operand index. -/
theorem reduce_ori_any [Subsingleton t.Idx] (x : s.Idx → BitVec 1) (init : u.Idx → BitVec 1) (h : s.ReducesTo axes t)
    (hu : 0 < u.numel) (hinit : init (Shape.Idx.first hu) = 0#1) (j : t.Idx)
    (e : Host.reduce IntOp.ori x init h hu j = 1#1) : ∃ i, x i = 1#1 := by
  rw [Host.reduce_eq_foldl] at e
  rcases foldl_ori_eq_one x _ _ e with h1 | ⟨n, _, hn⟩
  · rw [hinit] at h1; exact absurd h1 (by decide)
  · exact ⟨n, hn⟩

/-- The fold by 32-bit addition, from 0, of the zero-extended bits over a finite set has, as an unsigned number, the
    value of the sum of the bits mod 2^32. -/
theorem fold_addi_toNat {ι : Type} (x : ι → BitVec 1) (S : Finset ι) :
    (S.fold IntOp.addi 0#32 (fun i => (x i).setWidth 32)).toNat = (∑ i ∈ S, (x i).toNat) % 2 ^ 32 := by
  classical
  induction S using Finset.induction_on with
  | empty => simp
  | insert a S ha ih =>
    rw [Finset.fold_insert ha, Finset.sum_insert ha]
    show ((x a).setWidth 32 + _).toNat = _
    rw [BitVec.toNat_add, ih, BitVec.toNat_setWidth]
    have hlt : (x a).toNat < 2 := (x a).isLt
    generalize (∑ i ∈ S, (x i).toNat) = N
    omega

/-- The sum of the bits is at most the number of indices. -/
theorem sum_toNat_le_card {ι : Type} [Fintype ι] (x : ι → BitVec 1) : ∑ i : ι, (x i).toNat ≤ Fintype.card ι := by
  calc ∑ i : ι, (x i).toNat ≤ ∑ _i : ι, 1 :=
        Finset.sum_le_sum fun i _ => by have hlt : (x i).toNat < 2 := (x i).isLt; omega
    _ = Fintype.card ι := by simp

/-- The 32-bit sum of the zero-extended bits, from 0, into a result of one index, read as a signed integer, is the
    number of ones, while there are fewer than 2^31 indices. -/
theorem reduce_addi_toInt [Subsingleton t.Idx] (x : s.Idx → BitVec 1) (init : u.Idx → BitVec 32)
    (h : s.ReducesTo axes t) (hu : 0 < u.numel) (hinit : init (Shape.Idx.first hu) = 0#32) (j : t.Idx)
    (hsmall : Fintype.card s.Idx < 2 ^ 31) :
    (Host.reduce IntOp.addi (fun i => (x i).setWidth 32) init h hu j).toInt = ((∑ i : s.Idx, (x i).toNat : ℕ) : ℤ) := by
  rw [Host.reduce_eq_fold, hinit]
  have hS : (Finset.univ.filter fun i => h.drop i = j) = Finset.univ :=
    Finset.filter_true_of_mem fun i _ => Subsingleton.elim _ _
  rw [hS]
  have hle := sum_toNat_le_card x
  have hN := fold_addi_toNat x Finset.univ
  have hmod : (∑ i : s.Idx, (x i).toNat) % 2 ^ 32 = ∑ i : s.Idx, (x i).toNat := Nat.mod_eq_of_lt (by omega)
  rw [hmod] at hN
  rw [BitVec.toInt_eq_toNat_of_lt (by rw [hN]; omega), hN]

/-- The same as extended reals: the count is the sum of the bits. -/
theorem count_eq_sum [Subsingleton t.Idx] (x : s.Idx → BitVec 1) (init : u.Idx → BitVec 32) (h : s.ReducesTo axes t)
    (hu : 0 < u.numel) (hinit : init (Shape.Idx.first hu) = 0#32) (j : t.Idx) (hsmall : Fintype.card s.Idx < 2 ^ 31) :
    ((((Host.reduce IntOp.addi (fun i => (x i).setWidth 32) init h hu j).toInt : ℤ) : ℝ) : EReal)
      = ∑ i : s.Idx, (((x i).toNat : ℝ) : EReal) := by
  rw [reduce_addi_toInt x init h hu hinit j hsmall, Int.cast_natCast, Nat.cast_sum, coe_sum]

/-- The shape 2048 × 16 has fewer than 2^31 indices. -/
theorem card_2048x16 : Fintype.card (⟨2, ![2048, 16]⟩ : Shape).Idx < 2 ^ 31 := by
  rw [Shape.card_idx, Shape.numel, Fin.prod_univ_two]
  norm_num

/-- A sum of bits, as extended reals, is at least 1 as soon as one bit is 1. -/
theorem sum_pos_of_one (x : s.Idx → BitVec 1) (i₀ : s.Idx) (h : x i₀ = 1#1) :
    (1 : EReal) ≤ ∑ i : s.Idx, (((x i).toNat : ℝ) : EReal) := by
  rw [← coe_sum, ← EReal.coe_one, EReal.coe_le_coe_iff]
  calc (1 : ℝ) = ((x i₀).toNat : ℝ) := by rw [h]; simp
    _ ≤ ∑ i : s.Idx, ((x i).toNat : ℝ) :=
        Finset.single_le_sum (f := fun i => ((x i).toNat : ℝ)) (fun i _ => Nat.cast_nonneg _) (Finset.mem_univ i₀)

end Cert.LibCount
-- ==== Proof.RefSide.lean ====
/-
  The reference program computes the specified function.

  The reference takes, for each token (t, b), the row ρ = x[t, b, ·], forms d(ρ) = (∑ₖ ρₖ²) / 1024 + ε and divides
  the row by the square root of d(ρ). The padding bits are negated and transposed into validity bits v(t, b); the
  masked squares of the scaled entries are summed over all tokens into the channel statistic S_c, the validity bits
  are counted by a 32-bit integer sum n, and the result is w_c · (scaled_c / √(S_c / n + ε)) + bias_c.

  Read entry by entry this is the specification in its "divide by the square root" spelling:
  * a broadcast reads its operand at the index with the broadcast axes dropped, a transpose at the swapped index;
  * the sum over the token axes (t, b) at channel c runs over exactly the indices (t, b, c): an index i reduces to c
    precisely when its last coordinate is c, and (t, b) ↦ (t, b, c) is a bijection onto those;
  * the integer count of 2048 · 16 < 2^31 bits does not wrap, so its signed reading is the number of valid tokens.
  The two spellings (multiply by the reciprocal square root, divide by the square root) agree because the statistic
  is not negative and the count is a real number ≥ 1; the latter is what the precondition supplies: it ends in an
  "or" over all negated padding bits, which is 1 only if some token is valid.
-/
import proofs.«100372_j2413771621060_2_alg».proof.Proof.Gen.ReferenceIdeal.Read
import proofs.«100372_j2413771621060_2_alg».proof.Proof.Spec
import proofs.«100372_j2413771621060_2_alg».proof.Proof.LibCount
import proofs.«100372_j2413771621060_2_alg».proof.Pre_finite_inputs
import proofs.«100372_j2413771621060_2_alg».proof.Proof.Gen.Pre_finite_inputs
import Idealize.ShloMosaic.Lib.ReduceAll
import Idealize.ShloMosaic.Lib.ValueIdx

noncomputable section

open scoped BigOperators

namespace Cert.RefSide

open Idealize.ShloMosaic Idealize.ShloMosaic.ValueIdx

/-- The shape of rank zero has one index. -/
instance subsingleton_idx0 : Subsingleton (⟨0, ![]⟩ : Shape).Idx := ⟨fun _ _ => funext fun d => d.elim0⟩

/-! ## The precondition exhibits a valid token -/

/-- The precondition's last conjunct is an "or" over the negated padding bits; when the whole is 1, some negated
    padding bit is 1. -/
theorem exists_valid [Cert.Pre_finite_inputs.Facts] (x : FVec Ideal Cert.Pre_finite_inputs.S2048x16x1024 .f32)
    (w b : FVec Ideal Cert.Pre_finite_inputs.S1024 .f32) (pad : IVec Cert.Pre_finite_inputs.S16x2048 1)
    (h : Cert.Pre_finite_inputs.fn (F := Ideal) x w b pad = fun _ => 1#1) :
    ∃ i : Cert.Spec.SP.Idx, ~~~(pad i) = 1#1 := by
  have h0 := congrFun h ix0
  unfold Cert.Pre_finite_inputs.fn at h0
  dsimp only at h0
  have h1 := (IntOp.andi_eq_one.1 h0).2
  exact Cert.LibCount.reduce_ori_any (noti pad) _ _ _ rfl ix0 h1

/-! ## The reference, read entry by entry -/

section Reference

open Cert.ReferenceIdeal Cert.ReferenceIdeal.Gen Cert.ReferenceIdeal.Read

/-- Two indices with the same coordinates are read alike. -/
private theorem idx3_eq {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

private theorem idx2_eq {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

private theorem idx1_eq {n0 : Nat} (i : (⟨1, ![n0]⟩ : Shape).Idx) (a : Fin n0) (h0 : (i 0).val = a.val) : i = ix1 a :=
  funext fun d => Fin.ext (by match d with | ⟨0, _⟩ => exact h0)

/-- The scaled row: entry (t, b, c) of the reference's first quotient is ρ_c / √d(ρ) for the row ρ of (t, b). -/
theorem v9_eq (X : (⟨S2048x16x1024, .f32⟩ : BufTy).Contents (Elt Ideal)) (t : Fin 2048) (b : Fin 16) (c : Fin 1024) :
    val_main_v9 (F := Ideal) X (ix3 t b c) = Cert.Spec.xgR (Cert.Spec.row X t b) c := by
  have hidx : ∀ k : Fin 1024, idx_main_v1 (idx_main_v2 (idx_main_v8 (ix3 t b c))) k = ix3 t b k :=
    fun k => idx3_eq _ t b k rfl rfl rfl
  rw [val_main_v9_apply, val_main_v8_apply, val_main_v7_apply, val_main_v6_apply, val_main_v4_apply,
    val_main_v2_apply, val_main_v1_apply, val_main_v3_apply, val_main_v5_apply, val_main_cst_0_apply,
    val_main_cst_1_apply, val_main_cst_apply]
  simp only [val_main_v0_apply, hidx, Ideal.hostDivf_def, Ideal.hostUnary_sqrt_def, Ideal.addf_def, Ideal.mulf_def,
    Ideal.ofBits_def, Ideal.ofBits_zero_f32, zero_add]
  rfl

/-- The validity number: entry (t, b, c) of the broadcast mask is the validity bit of (t, b), as a number. -/
theorem v18_eq (pad : (⟨S16x2048, .i1⟩ : BufTy).Contents (Elt Ideal)) (t : Fin 2048) (b : Fin 16) (c : Fin 1024) :
    val_main_v18 (F := Ideal) pad (ix3 t b c) = Cert.Spec.bitR (Cert.Spec.vbit pad t b) := by
  have hidx : idx_main_v11 (idx_main_v16 (idx_main_v18 (ix3 t b c))) = ix2 b t := idx2_eq _ b t rfl rfl
  rw [val_main_v18_apply, val_main_v17_apply, val_main_v16_apply, val_main_v11_apply, val_main_v10_apply, hidx]
  rfl

/-- An index of the 2048 × 16 × 1024 array reduces, over the two token axes, to channel c exactly when its last
    coordinate is c. -/
theorem drop_eq_iff (i : S2048x16x1024.Idx) (c : Fin 1024) :
    reducesTo_S2048x16x1024_S1024_d0_1.drop i = ix1 c ↔ (i 2).val = c.val := by
  have hd : (reducesTo_S2048x16x1024_S1024_d0_1.drop i 0 : Nat) = i 2 :=
    Shape.ReducesTo.drop_apply_val_of_eq reducesTo_S2048x16x1024_S1024_d0_1 i 0 2
  constructor
  · intro h
    rw [← hd, h]
  · intro h
    exact idx1_eq _ c (hd.trans h)

/-- Over a rank-3 index set, the sum over the indices picked out by "the last coordinate is c" is the double sum over
    the first two coordinates (a, b) at (a, b, c): (a, b) ↦ (a, b, c) is a bijection onto those indices. -/
theorem sum_filter_last {n0 n1 n2 : Nat} {M : Type*} [AddCommMonoid M] (y : (⟨3, ![n0, n1, n2]⟩ : Shape).Idx → M)
    (c : Fin n2) (P : (⟨3, ![n0, n1, n2]⟩ : Shape).Idx → Prop) [DecidablePred P] (hP : ∀ i, P i ↔ (i 2).val = c.val) :
    ∑ i ∈ Finset.univ.filter P, y i = ∑ a : Fin n0, ∑ b : Fin n1, y (ix3 a b c) := by
  rw [← Fintype.sum_prod_type' (fun (a : Fin n0) (b : Fin n1) => y (ix3 a b c))]
  symm
  refine Finset.sum_bij (fun (p : Fin n0 × Fin n1) _ => ix3 p.1 p.2 c) ?_ ?_ ?_ ?_
  · intro p _
    rw [Finset.mem_filter]
    exact ⟨Finset.mem_univ _, (hP _).2 rfl⟩
  · intro p _ q _ h
    exact Prod.ext (congrFun h 0) (congrFun h 1)
  · intro i hi
    rw [Finset.mem_filter] at hi
    exact ⟨(i 0, i 1), Finset.mem_univ _, (idx3_eq i (i 0) (i 1) c rfl rfl ((hP i).1 hi.2)).symm⟩
  · intro p _
    rfl

/-- The sum over the indices that reduce to channel c is the double sum over the tokens (t, b) at (t, b, c). -/
theorem sum_filter_drop {M : Type*} [AddCommMonoid M] (y : S2048x16x1024.Idx → M) (c : Fin 1024) :
    ∑ i ∈ Finset.univ.filter (fun i => reducesTo_S2048x16x1024_S1024_d0_1.drop i = ix1 c), y i
      = ∑ t : Fin 2048, ∑ b : Fin 16, y (ix3 t b c) :=
  sum_filter_last y c _ fun i => drop_eq_iff i c

/-- The channel statistic: entry c of the reference's sum over the tokens is S_c. -/
theorem v20_eq (X : (⟨S2048x16x1024, .f32⟩ : BufTy).Contents (Elt Ideal)) (pad : (⟨S16x2048, .i1⟩ : BufTy).Contents (Elt Ideal))
    (c : Fin 1024) : val_main_v20 (F := Ideal) X pad (ix1 c) = Cert.Spec.stat X pad c := by
  unfold val_main_v20
  generalize hy : val_main_v19 (F := Ideal) X pad = y
  simp only [Host.reduceAdd, Ideal.hostReduceAdd_def]
  unfold Ideal.hostReduceAdd
  rw [sum_filter_drop, val_main_cst_2_apply, Ideal.ofBits_def, Ideal.ofBits_zero_f32, zero_add]
  unfold Cert.Spec.stat
  refine Finset.sum_congr rfl fun t _ => Finset.sum_congr rfl fun b _ => ?_
  rw [Cert.Spec.sqK_eq_sqR, ← hy, val_main_v19_apply, val_main_v15_apply, v9_eq, v18_eq]
  rfl

/-- A validity bit read from the transposed, negated padding array. -/
theorem v11_eq (pad : (⟨S16x2048, .i1⟩ : BufTy).Contents (Elt Ideal)) (i : S2048x16.Idx) :
    val_main_v11 (F := Ideal) pad i = Cert.Spec.vbit pad (i 0) (i 1) := by
  have hidx : idx_main_v11 i = ix2 (i 1) (i 0) := idx2_eq _ (i 1) (i 0) rfl rfl
  rw [val_main_v11_apply, val_main_v10_apply, hidx]
  rfl

/-- The count: the reference's integer count of the validity bits, converted, is the number of valid tokens. -/
theorem v14_eq (pad : (⟨S16x2048, .i1⟩ : BufTy).Contents (Elt Ideal)) :
    val_main_v14 (F := Ideal) pad ix0 = Cert.Spec.count pad := by
  rw [val_main_v14_apply]
  show ((((val_main_v13 (F := Ideal) pad ix0).toInt : ℤ) : ℝ) : EReal) = _
  unfold val_main_v13
  have hc := Cert.LibCount.count_eq_sum (val_main_v11 (F := Ideal) pad) (val_main_c (F := Ideal))
    reducesTo_S2048x16_S_d0_1 h_S_ rfl ix0 Cert.LibCount.card_2048x16
  refine hc.trans ?_
  unfold Cert.Spec.count
  exact Finset.sum_congr rfl fun i _ => by rw [v11_eq]; rfl

/-- With a valid token the count is a real number ≥ 1. -/
theorem count_real (pad : (⟨S16x2048, .i1⟩ : BufTy).Contents (Elt Ideal)) (hv : ∃ i : Cert.Spec.SP.Idx, ~~~(pad i) = 1#1) :
    ∃ r : ℝ, 1 ≤ r ∧ Cert.Spec.count pad = (r : EReal) := by
  obtain ⟨i, hi⟩ := hv
  refine ⟨((val_main_v13 (F := Ideal) pad ix0).toInt : ℝ), ?_, (v14_eq pad).symm⟩
  have h1 : (1 : EReal) ≤ Cert.Spec.count pad := by
    unfold Cert.Spec.count
    refine Cert.LibCount.sum_pos_of_one (s := Cert.Spec.ST) (fun j => Cert.Spec.vbit pad (j 0) (j 1)) (ix2 (i 1) (i 0)) ?_
    show ~~~(pad (ix2 (i 0) (i 1))) = 1#1
    exact (congrArg (fun j => ~~~(pad j)) (eq_ix2 i)).symm.trans hi
  rw [← v14_eq pad] at h1
  exact EReal.coe_le_coe_iff.1 (by rw [EReal.coe_one]; exact h1)

/-- THE REFERENCE'S RESULT IS THE SPECIFIED ARRAY, as soon as some token is valid. -/
theorem ref_eq_G (X : (⟨S2048x16x1024, .f32⟩ : BufTy).Contents (Elt Ideal)) (w bias : (⟨S1024, .f32⟩ : BufTy).Contents (Elt Ideal))
    (pad : (⟨S16x2048, .i1⟩ : BufTy).Contents (Elt Ideal)) (hv : ∃ i : Cert.Spec.SP.Idx, ~~~(pad i) = 1#1) :
    val_main_v34 (F := Ideal) X w bias pad = Cert.Spec.G X w bias pad := by
  funext i
  obtain ⟨t, b, c, rfl⟩ : ∃ (t : Fin 2048) (b : Fin 16) (c : Fin 1024), i = ix3 t b c := ⟨i 0, i 1, i 2, eq_ix3 i⟩
  have h27 : idx_main_v26 (idx_main_v27 (ix3 t b c)) = ix1 c := idx1_eq _ c rfl
  have h30 : idx_main_v29 (idx_main_v30 (ix3 t b c)) = ix1 c := idx1_eq _ c rfl
  have h33 : idx_main_v32 (idx_main_v33 (ix3 t b c)) = ix1 c := idx1_eq _ c rfl
  have h21 : idx_main_v21 (ix1 c) = ix0 := rfl
  rw [val_main_v34_apply, val_main_v31_apply, val_main_v33_apply, val_main_v32_apply, val_main_v30_apply,
    val_main_v29_apply, val_main_v28_apply, val_main_v27_apply, val_main_v26_apply, val_main_v25_apply,
    val_main_v24_apply, val_main_v22_apply, val_main_v23_apply, val_main_cst_3_apply, val_main_v21_apply,
    h27, h30, h33, h21, v9_eq, v20_eq, v14_eq]
  simp only [Ideal.hostDivf_def, Ideal.hostUnary_sqrt_def, Ideal.addf_def, Ideal.mulf_def, Ideal.ofBits_def]
  exact (Cert.Spec.outK_eq_outR _ _ _ _ _ _ (Cert.Spec.stat_nonneg X pad c) (count_real pad hv)).symm

end Reference

end Cert.RefSide

end
-- ==== Proof.lean ====
/-
  Masked power normalization: the two-pass kernel against its array-level reference, on the extended reals.

  Both programs scale every channel row of x by the inverse root of its mean square plus ε, form per channel the sum
  over the valid tokens of the scaled entries' squares, divide it by the number of valid tokens, and scale again by the
  inverse root of that quotient plus ε before the affine map.  The kernel multiplies by reciprocal square roots and
  accumulates the statistic tile by tile over a sixteen-point grid; the reference divides by square roots and sums in
  one reduction; the kernel counts the valid tokens in floating point, the reference in 32-bit integers.

  * The result array of the kernel's run is the function G of the launch arrays (the statistic's grid, the host
    quotient, the result's grid, each read as values).
  * The reference's result term is the same G: a sum over all tokens is the sum tile by tile, the integer count of at most
    32768 ones does not wrap, and dividing by a square root is multiplying by the reciprocal square root at every
    POSITIVE argument — which both arguments are once some token is valid, the precondition's last conjunct.
  * The three programs run to the end without a fault and leave their arguments as launched; the idealization rewrote
    nothing.
-/
import proofs.«100372_j2413771621060_2_alg».proof.Defs
import proofs.«100372_j2413771621060_2_alg».proof.Proof.Gen.Kernel
import proofs.«100372_j2413771621060_2_alg».proof.Proof.Gen.Kernel.Frame
import proofs.«100372_j2413771621060_2_alg».proof.Proof.Gen.KernelIdeal
import proofs.«100372_j2413771621060_2_alg».proof.Proof.Gen.KernelIdeal.Frame
import proofs.«100372_j2413771621060_2_alg».proof.Proof.Gen.ReferenceIdeal
import proofs.«100372_j2413771621060_2_alg».proof.Proof.Gen.Pre_finite_inputs
import proofs.«100372_j2413771621060_2_alg».proof.Proof.Gen.ReferenceIdeal.Run
import proofs.«100372_j2413771621060_2_alg».proof.Proof.Gen.ReferenceIdeal.Read
import proofs.«100372_j2413771621060_2_alg».proof.Proof.KRun
import proofs.«100372_j2413771621060_2_alg».proof.Proof.KValue
import proofs.«100372_j2413771621060_2_alg».proof.Proof.RefSide
import Idealize.ShloMosaic.Adequacy
import Idealize.ShloMosaic.Init

noncomputable section

namespace Cert.Proof

open Idealize.ShloMosaic Idealize.SL.Sem

/-- The kernel as printed runs to the end, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the result array at G of the arguments: the kernel's run names
    its result (the grids and host operations read as values), the reference's run ends at its composed term, which is
    the same G because some token is valid. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KValue.value m ρ c), (h c).2⟩) (Cert.KRun.run_value (F := Ideal) m ρ)
  · refine (θ_run Cert.ReferenceIdeal.defs _ _).mono (fun r h c => ⟨?_, (h c).2⟩)
      (Cert.ReferenceIdeal.Value.run (F := Ideal) m' ρ')
    have hv := Cert.RefSide.exists_valid _ _ _ _ (hpre c)
    rw [(h c).1, Cert.ReferenceIdeal.Read.val_main_v34_eq, (hagree c).1, (hagree c).2.1, (hagree c).2.2.1, (hagree c).2.2.2]
    exact Cert.RefSide.ref_eq_G _ _ _ _ hv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
